-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x3 : Shape := ⟨3, ![2048, 8, 3]⟩
abbrev S_ : Shape := ⟨0, ![]⟩

class Facts : Prop where
  bcast_S_S2048x8x3 : S_.BroadcastsInDim S2048x8x3 (![] : Fin 0 → Fin S2048x8x3.rank)
  reducesTo_S2048x8x3_S_d0_1_2 : S2048x8x3.ReducesTo [0, 1, 2] S_
  h_S_ : 0 < S_.numel

variable [Facts]

def fn {F : FTy → Type} [FloatOps F] (main_arg0 : FVec F S2048x8x3 .f32) (main_arg1 : FVec F S2048x8x3 .f32) : IVec S_ 1 :=
  let main_v0 : FVec F S2048x8x3 .f32 := Host.absf main_arg0
  let main_cst : FVec F S_ .f32 := constant S_ .f32 0x7F800000#32
  let main_v1 : FVec F S2048x8x3 .f32 := broadcastInDim S2048x8x3 ![] bcast_S_S2048x8x3 main_cst
  let main_v2 : IVec S2048x8x3 1 := cmpf .olt main_v0 main_v1
  let main_c : IVec S_ 1 := constantI S_ 1 1#1
  let main_v3 : IVec S_ 1 := (fun x v => Host.reduce IntOp.andi x v reducesTo_S2048x8x3_S_d0_1_2 h_S_) main_v2 main_c
  let main_v4 : FVec F S2048x8x3 .f32 := Host.absf main_arg1
  let main_cst_0 : FVec F S_ .f32 := constant S_ .f32 0x7F800000#32
  let main_v5 : FVec F S2048x8x3 .f32 := broadcastInDim S2048x8x3 ![] bcast_S_S2048x8x3 main_cst_0
  let main_v6 : IVec S2048x8x3 1 := cmpf .olt main_v4 main_v5
  let main_c_1 : IVec S_ 1 := constantI S_ 1 1#1
  let main_v7 : IVec S_ 1 := (fun x v => Host.reduce IntOp.andi x v reducesTo_S2048x8x3_S_d0_1_2 h_S_) main_v6 main_c_1
  let main_v8 : IVec S_ 1 := andi main_v3 main_v7
  main_v8
-- ==== Kernel.lean ====
abbrev S2048x8x3 : Shape := ⟨3, ![2048, 8, 3]⟩
abbrev S16384x3 : Shape := ⟨2, ![16384, 3]⟩
abbrev S16384x1 : Shape := ⟨2, ![16384, 1]⟩
abbrev S128x16384 : Shape := ⟨2, ![128, 16384]⟩
abbrev S1024x3 : Shape := ⟨2, ![1024, 3]⟩
abbrev S1024x1 : Shape := ⟨2, ![1024, 1]⟩
abbrev S8x1024 : Shape := ⟨2, ![8, 1024]⟩
abbrev S1024 : Shape := ⟨1, ![1024]⟩
abbrev S1x1024 : Shape := ⟨2, ![1, 1024]⟩
abbrev S1024x1024 : Shape := ⟨2, ![1024, 1024]⟩
abbrev S16x8x16384 : Shape := ⟨3, ![16, 8, 16384]⟩
abbrev S_ : Shape := ⟨0, ![]⟩
abbrev S8x16384 : Shape := ⟨2, ![8, 16384]⟩
abbrev S1x16384 : Shape := ⟨2, ![1, 16384]⟩
abbrev S16384 : Shape := ⟨1, ![16384]⟩
abbrev S2048x8 : Shape := ⟨2, ![2048, 8]⟩
abbrev S2048 : Shape := ⟨1, ![2048]⟩

abbrev nBuf : Space → Nat
  | .hbm => 41
  | .vmem => 8
  | .smem => 0
  | _ => 0

abbrev bufTy : (tb : Table) → Fin (tcTables nBuf tb) → BufTy
  | .hbm, ⟨0, _⟩ => ⟨S2048x8x3, .f32⟩
  | .hbm, ⟨1, _⟩ => ⟨S2048x8x3, .f32⟩
  | .hbm, ⟨2, _⟩ => ⟨S16384x3, .f32⟩
  | .hbm, ⟨3, _⟩ => ⟨S16384x3, .f32⟩
  | .hbm, ⟨4, _⟩ => ⟨S16384x1, .f32⟩
  | .hbm, ⟨5, _⟩ => ⟨S128x16384, .f32⟩
  | .hbm, ⟨6, _⟩ => ⟨S16x8x16384, .f32⟩
  | .hbm, ⟨7, _⟩ => ⟨S_, .f32⟩
  | .hbm, ⟨8, _⟩ => ⟨S8x16384, .f32⟩
  | .hbm, ⟨9, _⟩ => ⟨S1x16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S2048x8, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048x8, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S8x1024, .f32⟩
  | .local _ .vmem, ⟨7, _⟩ => ⟨S8x1024, .f32⟩
  | _, _ => ⟨S2048x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_8 : BitVec 32 := 0#32
  let v24 : BitVec 1 := Scalar.cmpi .ne v23 c0_i32_8
  v24

def k0_cond2 (i : grid0.Coords) : BitVec 1 :=
  let arg1 : BitVec 32 := BitVec.ofNat 32 (i 1).val
  let c0_i32_9 : BitVec 32 := 0#32
  let v25 : BitVec 1 := Scalar.cmpi .ne arg1 c0_i32_9
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x8x3_S16384x3 : S2048x8x3.ShapeCasts S16384x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  shapeCasts_S128x16384_S16x8x16384 : S128x16384.ShapeCasts S16x8x16384
  reducesTo_S16x8x16384_S8x16384_d0 : S16x8x16384.ReducesTo [0] S8x16384
  h_S_ : 0 < S_.numel
  slices_S8x16384_S1x16384_0_0 : S8x16384.Slices ![0, 0] S1x16384
  shapeCasts_S1x16384_S16384 : S1x16384.ShapeCasts S16384
  shapeCasts_S16384x1_S16384 : S16384x1.ShapeCasts S16384
  bcast_S_S16384 : S_.BroadcastsInDim S16384 (![] : Fin 0 → Fin S16384.rank)
  shapeCasts_S16384_S2048x8 : S16384.ShapeCasts S2048x8
  reducesTo_S2048x8_S2048_d1 : S2048x8.ReducesTo [1] S2048
  bcast_S_S2048 : S_.BroadcastsInDim S2048 (![] : Fin 0 → Fin S2048.rank)
  reducesTo_S2048_S_d0 : S2048.ReducesTo [0] S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S128x16384.size a
  hwx0_3 : ∀ i : grid0.Coords, EltTy.bits .f32 = 32 ∨ (Rect.block (s := S128x16384) S8x1024.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S2048x8x3 : Shape := ⟨3, ![2048, 8, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2048x8 : Shape := ⟨2, ![2048, 8]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x8x3, .f32⟩
  | .hbm, ⟨1, _⟩ => ⟨S2048x8x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S2048x8, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S16384, .f32⟩
  | .hbm, ⟨34, _⟩ => ⟨S2048x8, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S2048x8x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  shapeCasts_S2048x8x3_S16384x3 : S2048x8x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  shapeCasts_S16384_S2048x8 : S16384.ShapeCasts S2048x8
  reducesTo_S2048x8_S2048_d1 : S2048x8.ReducesTo [1] S2048
  bcast_S_S2048 : S_.BroadcastsInDim S2048 (![] : Fin 0 → Fin S2048.rank)
  reducesTo_S16384x16384_S16384_d0 : S16384x16384.ReducesTo [0] S16384
  reducesTo_S2048_S_d0 : S2048.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.KIRun.lean ====
/-
  The kernel body run symbolically on whole staging buffers, in the two cases the grid meets.
  At a point whose second coordinate is 0 the body overwrites the row-minimum block with the tile's row
  minima; at every other point it replaces the block by its elementwise minimum with the tile's row minima.
  In both cases the column-minimum block is overwritten with the tile's column minima, and the two input
  blocks are left as they were found. Each case is stated with the buffers' final contents named by the
  body's own arithmetic terms (the row minima, the accumulated minima, the broadcast column minima).
-/
import proofs.«140723_j70153995813078_2_alg».proof.Proof.Gen.KernelIdeal.Skeleton
import proofs.«140723_j70153995813078_2_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The first branch (overwrite) is taken exactly at the points whose second coordinate is 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second branch (accumulate) is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The zero offsets of a whole-block access. -/
theorem zero2 : (![0, 0] : Fin 2 → ℕ) = fun _ => 0 := by funext a; fin_cases a <;> rfl

/-- One whole-block store leaves its payload, whatever the buffer held. -/
theorem read_one_store {κ : Kind} {sp : Space} {S : Shape} {e : EltTy}
    (v : View sig κ sp S e) (f : v.ty.Contents (Elt F)) {off : Fin S.rank → ℕ} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- The body where the row-minimum block is overwritten (second coordinate 0). -/
theorem run_first (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S8x1024 .f32) (harg5 : arg5.IsWhole)
    (hc1 : k0_cond1 i = 1#1) (hc2 : ¬ k0_cond2 i = 1#1)
    (x0 : Vec F S1024x3 .f32) (x1 : Vec F S1024x3 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_one_store _ _ zero2]
    simp only [View.readAt_eq_ld, harg2.read_unread, harg3.read_unread, View.ld_unit_zero (S := S1024x3) zero2]
  iexists _; isplitr
  swap; · iexact H3
  ipureintro
  rw [read_one_store _ _ zero2]
  simp only [View.readAt_eq_ld, harg2.read_unread, harg3.read_unread, View.ld_unit_zero (S := S1024x3) zero2]

set_option maxHeartbeats 1000000 in
/-- The body where the row-minimum block is accumulated into (second coordinate not 0): the block is read
    back and replaced by its minimum with the tile's row minima. -/
theorem run_next (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S8x1024 .f32) (harg5 : arg5.IsWhole)
    (hc1 : ¬ k0_cond1 i = 1#1) (hc2 : k0_cond2 i = 1#1)
    (x0 : Vec F S1024x3 .f32) (x1 : Vec F S1024x3 .f32) (xo2 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare xo2 ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 x0 x1 xo2) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_one_store _ _ zero2]
    simp only [View.readAt_eq_ld, harg2.read_unread, harg3.read_unread, harg4.read_unread,
      View.ld_unit_zero (S := S1024x3) zero2, View.ld_unit_zero (S := S1024x1) zero2]
  iexists _; isplitr
  swap; · iexact H3
  ipureintro
  rw [read_one_store _ _ zero2]
  simp only [View.readAt_eq_ld, harg2.read_unread, harg3.read_unread, View.ld_unit_zero (S := S1024x3) zero2]

end Cert.KernelIdeal.Body

end
-- ==== Proof.KIBody.lean ====
/-
  The pipeline's proof data and the frame run.
  Grid point t = 16·i + j works on row tile i and column tile j (1024 rows each). The row-minimum
  output block depends on i only, so its staging buffer is carried across the 16 points of a row of the
  grid and written back at j = 15: after point t it holds the minimum, over the column tiles 0..j, of
  the tile's row minima — defined here by recursion on the point. The column-minimum output block is
  rewritten whole at every point. The inputs' buffers hold their blocks throughout.
-/
import proofs.«140723_j70153995813078_2_alg».proof.Proof.KIRun

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row-minimum block is stored into at every point: one of the two branches is always taken. -/
theorem live2 : ∀ i : grid0.Coords, cfg0.idle 2 i = false := by
  intro i
  have h : ∀ j : Fin 16, (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by decide
  exact h (i 1)

/-- Each window's current staging buffer at point `t`, as the pipeline passes it to the body. -/
abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)

/-- THE RUNNING ROW MINIMA. What the row-minimum staging buffer holds after the body at position `n`:
    at the first column tile the tile's row minima, afterwards their minimum with what the point before left. -/
def acc (c : Dev nD) : (n : ℕ) → n < cfg0.N → Vec F S1024x1 .f32
  | 0, hn => k0_pay2 (iblk m c 0 ⟨0, hn⟩) (iblk m c 1 ⟨0, hn⟩)
  | n + 1, hn =>
    if (n + 1) % 16 = 0 then k0_pay2 (iblk m c 0 ⟨n + 1, hn⟩) (iblk m c 1 ⟨n + 1, hn⟩)
    else k0_pay3 (iblk m c 0 ⟨n + 1, hn⟩) (iblk m c 1 ⟨n + 1, hn⟩) (acc c n (Nat.lt_of_succ_lt hn))

/-- At a first column tile: the tile's row minima. -/
theorem acc_first (c : Dev nD) (t : Fin cfg0.N) (h0 : t.val % 16 = 0) :
    acc m c t.val t.isLt = k0_pay2 (iblk m c 0 t) (iblk m c 1 t) := by
  obtain ⟨n, hn⟩ := t
  cases n with
  | zero => exact rfl
  | succ n => exact (if_pos h0).trans rfl

/-- At a later column tile: the minimum of what the point before left and the tile's row minima. -/
theorem acc_next (c : Dev nD) (t : Fin cfg0.N) (h0 : ¬t.val % 16 = 0) :
    acc m c t.val t.isLt = k0_pay3 (iblk m c 0 t) (iblk m c 1 t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core `c`: the arrays as the region finds them; after the body at
    point `t` each input's buffer at its block, the row-minimum buffer at the running minima, the
    column-minimum buffer at the tile's column minima broadcast over its 8 rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
    | ⟨3, _⟩ => k0_pay4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]
theorem after3 (c : Dev nD) (t : Fin cfg0.N) : (dats m 0 c).after 3 t = k0_pay4 (iblk m c 0 t) (iblk m c 1 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row-minimum buffer still holds what the body left at the point before: the
    block was not written back in between (write-backs happen after the last column tile only). -/
theorem before2_next (c : Dev nD) (t : Fin cfg0.N) (h0 : ¬t.val % 16 = 0) (d) :
    (dats m 0 c).before 2 t d = acc m c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live2 (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point's second coordinate says which
    case it is in; at a later column tile the row-minimum buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [acc_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_next m c t h0]
    simp only [before2_next m c t h0]
    iintro ⟨HΦ, Ho, ⟨%d0, H0⟩, ⟨%d1, H1⟩, ⟨%d2, H2⟩, ⟨%d3, H3⟩⟩
    iapply (run_next c (grid0.coords t) _ _ _ _ _ _ _ _ (fun h => h0 ((hcond1 t).mp h)) ((hcond2 t).mpr h0) (iblk m c 0 t) (iblk m c 1 t) _ Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  dsimp only
  rw [show idle0 2 (grid0.coords t) = false from live2 (grid0.coords t)]
  exact sound_body m c t

set_option backward.isDefEq.respectTransparency.types false in
/-- Every weakly fair execution of @main terminates; every array of the pipeline ends at what the library
    computes from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibMinima.lean ====
/-
  The mathematics of the two-sided nearest-neighbour distance, on the extended reals.
  For point clouds X, Y (16384 points of 3 coordinates each) the squared distance from point n of X to
  point m of Y is  D2 n m = (Σ_k X[n,k]² + Σ_k Y[m,k]²) − 2 · Σ_k X[n,k]·Y[m,k].
  One program clamps at zero and takes the square root of every entry and then the minimum along a row
  or a column; the other takes the minimum first — tile by tile — and clamps and takes the root of the
  minima. Clamping followed by the square root is a monotone map of the extended reals that fixes +∞,
  so it commutes with finite minima; and a minimum over 16384 indices is the minimum, over 16 blocks,
  of the minima over the 1024 indices of each block. Both programs then average the two vectors of
  minima in the same way.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- The factor 2 of the cross term, as the float word both programs use. -/
def two : EReal := Ideal.ofBits .f32 0x40000000#32

/-- Squared distance between row `n` of `X` and row `m` of `Y`, expanded. -/
def D2 {N M : ℕ} (X : (⟨2, ![N, 3]⟩ : Shape).Idx → EReal) (Y : (⟨2, ![M, 3]⟩ : Shape).Idx → EReal) (n : Fin N) (m : Fin M) : EReal :=
  ((∑ k : Fin 3, X (ix2 n k) * X (ix2 n k)) + ∑ k : Fin 3, Y (ix2 m k) * Y (ix2 m k))
    - two * ∑ k : Fin 3, X (ix2 n k) * Y (ix2 m k)

/-- Clamp at zero, then the square root. -/
def clampSqrt (x : EReal) : EReal := Ideal.sqrt (max x 0)

/-- The square root of the extended reals (−∞ below zero) is monotone. -/
theorem sqrt_mono : Monotone Ideal.sqrt := by
  intro a b hab
  induction a using EReal.rec with
  | bot => simp
  | top =>
    have hb : b = ⊤ := top_le_iff.mp hab
    subst hb; exact le_rfl
  | coe r =>
    induction b using EReal.rec with
    | bot => exact absurd hab (by simp)
    | top => simp
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

theorem clampSqrt_mono : Monotone clampSqrt :=
  fun _ _ h => sqrt_mono (max_le_max h le_rfl)

theorem clampSqrt_top : clampSqrt ⊤ = ⊤ := by
  unfold clampSqrt; rw [max_eq_left le_top]; exact Ideal.sqrt_top

/-- Clamp-and-root commutes with a finite minimum (the empty minimum being +∞). -/
theorem clampSqrt_inf {ι : Type*} (s : Finset ι) (f : ι → EReal) :
    clampSqrt (s.inf f) = s.inf fun i => clampSqrt (f i) := by
  classical
  induction s using Finset.induction_on with
  | empty => simpa using clampSqrt_top
  | insert a s ha ih => rw [Finset.inf_insert, Finset.inf_insert, clampSqrt_mono.map_inf, ih]

/-- The float word of +∞ is the top of the extended reals. -/
theorem top_bits : Ideal.ofBits .f32 0x7F800000#32 = (⊤ : EReal) := by
  simp [Ideal.ofBits, Ideal.ieee]

/-- A fold of `min` from +∞ is the finite infimum. -/
theorem fold_min_top {ι : Type*} (s : Finset ι) (f : ι → EReal) : s.fold min ⊤ f = s.inf f :=
  eq_of_forall_le_iff fun c => by
    rw [Finset.le_fold_min, Finset.le_inf_iff]
    exact ⟨fun h => h.2, fun h => ⟨le_top, h⟩⟩

/-- A minimum over `A * B` indices is the minimum over `A` blocks of the minima over the `B` indices
    of each block. -/
theorem inf_blocks {A B : ℕ} (hB : 0 < B) (f : Fin (A * B) → EReal) :
    (Finset.univ : Finset (Fin A)).inf (fun a => (Finset.univ : Finset (Fin B)).inf fun r =>
      f ⟨B * a.val + r.val, by
        have := a.isLt; have := r.isLt
        calc B * a.val + r.val < B * a.val + B := by omega
          _ = B * (a.val + 1) := by ring
          _ ≤ B * A := Nat.mul_le_mul_left _ (by omega)
          _ = A * B := Nat.mul_comm _ _⟩)
      = Finset.univ.inf f :=
  eq_of_forall_le_iff fun c => by
    simp only [Finset.le_inf_iff, Finset.mem_univ, forall_true_left]
    constructor
    · intro h n
      have hn := n.isLt
      have h1 : n.val / B < A := Nat.div_lt_of_lt_mul (lt_of_lt_of_eq hn (Nat.mul_comm A B))
      have h2 : n.val % B < B := Nat.mod_lt _ hB
      have := h ⟨n.val / B, h1⟩ ⟨n.val % B, h2⟩
      have e : (⟨B * (n.val / B) + n.val % B, by rw [Nat.div_add_mod]; exact hn⟩ : Fin (A * B)) = n :=
        Fin.ext (Nat.div_add_mod _ _)
      simpa only [e] using this
    · intro h a r
      exact h _

end Chamfer

end
-- ==== Proof.KITile.lean ====
/-
  The tile arithmetic read entry by entry on the extended reals.
  For a block x of 1024 rows of X and a block y of 1024 rows of Y, the body's tile of squared distances
  has entry (r, q) equal to D2 x y r q; its row minima are, at row r, the minimum over q of D2 x y r q
  (one column, kept as [1024, 1]); its column minima are, at column q, the minimum over r of
  D2 x y r q, repeated over the 8 rows of the block stored. The accumulated block is the entrywise
  minimum of the previous contents and the row minima.
-/
import proofs.«140723_j70153995813078_2_alg».proof.Proof.Gen.KernelIdeal.Skeleton
import proofs.«140723_j70153995813078_2_alg».proof.Proof.LibMinima
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx Chamfer

/-- The row of `x` that the lane sum at `r` runs over. -/
theorem lift_row (r : Fin 1024) (k : Fin 3) : reduces_S1024x3_S1024.lift (ix1 r) k = ix2 r k :=
  funext fun a => Fin.ext (by match a with | ⟨0, _⟩ => rfl | ⟨1, _⟩ => rfl)

/-- The sum of squares of row `r`, as the lane reduction of the squared block. -/
theorem rowsq (x : FVec Ideal S1024x3 .f32) (hφ : FKind.Formats .f32)
    (hacc : (0x00000000#32 : BitVec 32) = FKind.add.neutral .f32 hφ) (r : Fin 1024) :
    multiReduction (F := Ideal) .add [1] S1024 (mulf x x) 0x00000000#32 reduces_S1024x3_S1024 hφ hacc (ix1 r)
      = ∑ k : Fin 3, x (ix2 r k) * x (ix2 r k) := by
  refine (Ideal.multiReduction_add_single (mulf x x) _ reduces_S1024x3_S1024 hφ hacc (ix1 r)).trans ?_
  refine Finset.sum_congr rfl fun k _ => ?_
  exact congrArg₂ (· * ·) (congrArg x (lift_row r k)) (congrArg x (lift_row r k))

/-- A [1024] vector kept as a [1024, 1] column reads, at (r, u), the vector at r. -/
theorem col_apply {α : Type} (v : S1024.Idx → α) (r : Fin 1024) (u : Fin 1) :
    shapeCast S1024x1 v shapeCasts_S1024_S1024x1 (ix2 r u) = v (ix1 r) :=
  shapeCast_apply v _ (ix2 r u) (ix1 r) (by
    rw [Shape.rowMajor_val_one, Shape.rowMajor_val_two]
    show r.val = r.val * 1 + u.val
    have := u.isLt; omega)

/-- A [1024, 1] column broadcast along the columns reads, at (r, q), the column at r. -/
theorem bcast_col_apply {α : Type} (v : S1024x1.Idx → α) (r q : Fin 1024) :
    broadcastTo S1024x1024 v broadcasts_S1024x1_S1024x1024 (ix2 r q) = v (ix2 r (0 : Fin 1)) :=
  broadcastTo_apply v _ (ix2 r q) (ix2 r (0 : Fin 1)) (fun ax => by
    match ax with
    | ⟨0, _⟩ => show r.val = if (1024 : ℕ) = 1 then 0 else r.val; rw [if_neg (by decide)]
    | ⟨1, _⟩ => show 0 = if (1 : ℕ) = 1 then 0 else q.val; rw [if_pos rfl])

/-- The matrix product of the two blocks (second block transposed) at (r, q): the inner product of row r
    of the first with row q of the second. -/
theorem cross_apply (x y : FVec Ideal S1024x3 .f32) (r q : Fin 1024) :
    matmul (F := Ideal) dot_S1024x3_S1024x3_S1024x1024_1_1_0_0_n_n (some .fp32) x y (constant S1024x1024 .f32 0x00000000#32) (ix2 r q)
      = ∑ k : Fin 3, x (ix2 r k) * y (ix2 q k) := by
  refine (Ideal.matmul_constant_zero_apply dot_S1024x3_S1024x3_S1024x1024_1_1_0_0_n_n (some .fp32) x y (ix2 r q)).trans ?_
  rw [← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 r q) ((ValueIdx.contrEquiv1 dot_S1024x3_S1024x3_S1024x1024_1_1_0_0_n_n 3 rfl rfl).symm k) = ix2 r k :=
    funext fun a => Fin.ext (by
      match a with
      | ⟨0, _⟩ =>
        show (dot_S1024x3_S1024x3_S1024x1024_1_1_0_0_n_n.lhsIdx (ix2 r q) _ 0).val = r.val
        unfold DotDims.lhsIdx
        rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
        rfl
      | ⟨1, _⟩ => exact (dot_S1024x3_S1024x3_S1024x1024_1_1_0_0_n_n.lhsIdx_val_of_single rfl (ix2 r q) _).trans hk)
  have er : dot_S1024x3_S1024x3_S1024x1024_1_1_0_0_n_n.rhsIdx (ix2 r q) ((ValueIdx.contrEquiv1 dot_S1024x3_S1024x3_S1024x1024_1_1_0_0_n_n 3 rfl rfl).symm k) = ix2 q k :=
    funext fun a => Fin.ext (by
      match a with
      | ⟨0, _⟩ =>
        show (dot_S1024x3_S1024x3_S1024x1024_1_1_0_0_n_n.rhsIdx (ix2 r q) _ 0).val = q.val
        unfold DotDims.rhsIdx
        rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
        rfl
      | ⟨1, _⟩ => exact (dot_S1024x3_S1024x3_S1024x1024_1_1_0_0_n_n.rhsIdx_val_of_single rfl (ix2 r q) _).trans hk)
  rw [el, er]

/-- THE TILE: entry (r, q) of the body's squared-distance tile. -/
theorem tile_apply (x y : Vec Ideal S1024x3 .f32) (r q : Fin 1024) :
    k0_pay1 (F := Ideal) x y (ix2 r q) = D2 x y r q := by
  unfold k0_pay1 D2 two
  simp only [shapeCast_self]
  rw [subf_apply, addf_apply, mulf_apply, broadcast_apply]
  refine congrArg₂ (· - ·) (congrArg₂ (· + ·) ?_ ?_) (congrArg₂ (· * ·) rfl (cross_apply x y r q))
  · refine (bcast_col_apply _ r q).trans ?_
    refine (col_apply _ r 0).trans ?_
    exact rowsq x _ _ r
  · refine (broadcastTo_1b_ab_apply _ _ r q).trans ?_
    refine (transpose_ix2_apply _ _ (0 : Fin 1) q).trans ?_
    refine (col_apply _ q 0).trans ?_
    exact rowsq y _ _ q

end Cert.KernelIdeal.Tile

end
-- ==== Proof.KIMinima.lean ====
/-
  The minima of a tile, entry by entry: the row minima (kept as a column), the running minima after
  one more tile, and the column minima (repeated over 8 rows).
-/
import proofs.«140723_j70153995813078_2_alg».proof.Proof.KITile

set_option maxRecDepth 16384

noncomputable section

namespace Cert.KernelIdeal.Tile

open Cert.KernelIdeal Cert.KernelIdeal.Gen Idealize.ShloMosaic Idealize.ShloMosaic.ValueIdx Chamfer

/-- The entries a minimum along the columns runs over, at row `r`. -/
theorem lift_along_cols (r q : Fin 1024) : reduces_S1024x1024_S1024.lift (ix1 r) q = ix2 r q :=
  funext fun a => Fin.ext (by match a with | ⟨0, _⟩ => rfl | ⟨1, _⟩ => rfl)

/-- The entries a minimum along the rows runs over, at column `q`. -/
theorem lift_along_rows (q r : Fin 1024) : reduces_S1024x1024_S1024_2.lift (ix1 q) r = ix2 r q :=
  funext fun a => Fin.ext (by match a with | ⟨0, _⟩ => rfl | ⟨1, _⟩ => rfl)

/-- A minimum reduction along the columns, from +∞: at row r the minimum of the row's entries. -/
theorem rowmin (T : FVec Ideal S1024x1024 .f32) (hφ : FKind.Formats .f32)
    (hacc : (0x7F800000#32 : BitVec 32) = FKind.minimumf.neutral .f32 hφ) (r : Fin 1024) :
    multiReduction (F := Ideal) .minimumf [1] S1024 T 0x7F800000#32 reduces_S1024x1024_S1024 hφ hacc (ix1 r)
      = Finset.univ.inf fun q : Fin 1024 => T (ix2 r q) := by
  refine (multiReduction_minimumf_eq_fold T _ reduces_S1024x1024_S1024 hφ hacc (ix1 r)).trans ?_
  refine (reduces_S1024x1024_S1024.fold_filter_drop_single FloatOps.minimumf _ T (ix1 r)).trans ?_
  show (Finset.univ : Finset (Fin 1024)).fold min (Ideal.ofBits .f32 0x7F800000#32) (fun q : Fin 1024 => T (reduces_S1024x1024_S1024.lift (ix1 r) q)) = _
  rw [top_bits]
  refine (fold_min_top (Finset.univ : Finset (Fin 1024)) _).trans ?_
  exact congrArg (Finset.univ.inf) (funext fun q => congrArg T (lift_along_cols r q))

/-- A minimum reduction along the rows, from +∞: at column q the minimum of the column's entries. -/
theorem colmin (T : FVec Ideal S1024x1024 .f32) (hφ : FKind.Formats .f32)
    (hacc : (0x7F800000#32 : BitVec 32) = FKind.minimumf.neutral .f32 hφ) (q : Fin 1024) :
    multiReduction (F := Ideal) .minimumf [0] S1024 T 0x7F800000#32 reduces_S1024x1024_S1024_2 hφ hacc (ix1 q)
      = Finset.univ.inf fun r : Fin 1024 => T (ix2 r q) := by
  refine (multiReduction_minimumf_eq_fold T _ reduces_S1024x1024_S1024_2 hφ hacc (ix1 q)).trans ?_
  refine (reduces_S1024x1024_S1024_2.fold_filter_drop_single FloatOps.minimumf _ T (ix1 q)).trans ?_
  show (Finset.univ : Finset (Fin 1024)).fold min (Ideal.ofBits .f32 0x7F800000#32) (fun r : Fin 1024 => T (reduces_S1024x1024_S1024_2.lift (ix1 q) r)) = _
  rw [top_bits]
  refine (fold_min_top (Finset.univ : Finset (Fin 1024)) _).trans ?_
  exact congrArg (Finset.univ.inf) (funext fun r => congrArg T (lift_along_rows q r))

/-- The tile's row minima, as the [1024, 1] column the body stores. -/
theorem rowmins_apply (x y : Vec Ideal S1024x3 .f32) (r : Fin 1024) (u : Fin 1) :
    k0_pay2 (F := Ideal) x y (ix2 r u) = Finset.univ.inf fun q : Fin 1024 => D2 x y r q := by
  unfold k0_pay2
  refine (col_apply _ r u).trans ?_
  refine (rowmin _ _ _ r).trans ?_
  exact congrArg (Finset.univ.inf) (funext fun q => tile_apply x y r q)

/-- The accumulated block: the previous contents' minimum with the tile's row minima. -/
theorem accmins_apply (x y : Vec Ideal S1024x3 .f32) (xo : Vec Ideal S1024x1 .f32) (r : Fin 1024) (u : Fin 1) :
    k0_pay3 (F := Ideal) x y xo (ix2 r u) = min (xo (ix2 r u)) (Finset.univ.inf fun q : Fin 1024 => D2 x y r q) := by
  unfold k0_pay3
  simp only [shapeCast_self]
  rw [minimumf_apply, rowmins_apply]

/-- The tile's column minima, repeated over the 8 rows of the block the body stores. -/
theorem colmins_apply (x y : Vec Ideal S1024x3 .f32) (s : Fin 8) (q : Fin 1024) :
    k0_pay4 (F := Ideal) x y (ix2 s q) = Finset.univ.inf fun r : Fin 1024 => D2 x y r q := by
  unfold k0_pay4
  simp only [shapeCast_self]
  refine (broadcastTo_1b_ab_apply _ _ s q).trans ?_
  refine (shapeCast_a_1a_apply _ _ (0 : Fin 1) q).trans ?_
  refine (colmin _ _ _ q).trans ?_
  exact congrArg (Finset.univ.inf) (funext fun r => tile_apply x y r q)

end Cert.KernelIdeal.Tile

end
-- ==== Proof.KIArrays.lean ====
/-
  From blocks to arrays. Grid point t works on row tile t / 16 and column tile t % 16.
  After the run, row n of the row-minimum array holds the minimum over all 16384 columns m of D2 n m
  (the running minima written back after the last column tile), and entry (8·a + s, m) of the
  column-minimum array holds the minimum over the 1024 rows of row tile a of D2 · m.
-/
import proofs.«140723_j70153995813078_2_alg».proof.Proof.KIBody
import proofs.«140723_j70153995813078_2_alg».proof.Proof.KIMinima

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Tile Idealize.ShloMosaic.ValueIdx Chamfer

variable (m : (ℓ : Loc nD τ sig) → Buf (Elt Ideal) ℓ)

/-- A point index as a row or column index of the clouds (total: reduced modulo the extent). -/
def pt (n : ℕ) : Fin 16384 := ⟨n % 16384, Nat.mod_lt _ (by decide)⟩

theorem pt_val {n : ℕ} (h : n < 16384) : (pt n).val = n := Nat.mod_eq_of_lt h

theorem pt_self (n : Fin 16384) : pt n.val = n := Fin.ext (Nat.mod_eq_of_lt n.isLt)

/-- The two clouds as the region finds them. -/
abbrev cloudX (c : Dev nD) : S16384x3.Idx → EReal := V m c main_v0
abbrev cloudY (c : Dev nD) : S16384x3.Idx → EReal := V m c main_v1

/-- The printed index maps, decided once over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = t.val % 16 :=
  (by decide +kernel : ∀ t : Fin grid0.N, _)

theorem N256 : cfg0.N = 256 := N_0

/-- Row r of the first cloud's block at point t is row 1024·(t/16) + r of the cloud. -/
theorem xblock_apply (c : Dev nD) (t : Fin cfg0.N) (r : Fin 1024) (k : Fin 3) :
    (iblk m c 0 t : Vec Ideal S1024x3 .f32) (ix2 r k) = cloudX m c (ix2 (pt (1024 * (t.val / 16) + r.val)) k) := by
  have ht : t.val < 256 := lt_of_lt_of_eq t.isLt N256
  obtain ⟨e0, e1, -⟩ := idx_facts t
  show V m c main_v0 (((cfg0.win 0).blk t).view.emb (ix2 r k)) = V m c main_v0 _
  refine congrArg (V m c main_v0) (funext fun a => Fin.ext ?_)
  match a with
  | ⟨0, _⟩ =>
    show win0_0.index t (0 : Fin 2) * 1024 + 1 * r.val = (pt (1024 * (t.val / 16) + r.val)).val
    rw [pt_val (by have := r.isLt; omega), e0]; omega
  | ⟨1, _⟩ =>
    show win0_0.index t (1 : Fin 2) * 3 + 1 * k.val = k.val
    rw [e1]; omega

/-- Row q of the second cloud's block at point t is row 1024·(t%16) + q of the cloud. -/
theorem yblock_apply (c : Dev nD) (t : Fin cfg0.N) (q : Fin 1024) (k : Fin 3) :
    (iblk m c 1 t : Vec Ideal S1024x3 .f32) (ix2 q k) = cloudY m c (ix2 (pt (1024 * (t.val % 16) + q.val)) k) := by
  have ht : t.val < 256 := lt_of_lt_of_eq t.isLt N256
  obtain ⟨-, -, e0, e1, -⟩ := idx_facts t
  show V m c main_v1 (((cfg0.win 1).blk t).view.emb (ix2 q k)) = V m c main_v1 _
  refine congrArg (V m c main_v1) (funext fun a => Fin.ext ?_)
  match a with
  | ⟨0, _⟩ =>
    show win0_1.index t (0 : Fin 2) * 1024 + 1 * q.val = (pt (1024 * (t.val % 16) + q.val)).val
    rw [pt_val (by have := q.isLt; omega), e0]; omega
  | ⟨1, _⟩ =>
    show win0_1.index t (1 : Fin 2) * 3 + 1 * k.val = k.val
    rw [e1]; omega

/-- The tile's squared distances are the clouds' at the tile's rows and columns. -/
theorem tileD2 (c : Dev nD) (t : Fin cfg0.N) (r q : Fin 1024) :
    D2 (N := 1024) (M := 1024) (iblk m c 0 t : Vec Ideal S1024x3 .f32) (iblk m c 1 t : Vec Ideal S1024x3 .f32) r q
      = D2 (cloudX m c) (cloudY m c) (pt (1024 * (t.val / 16) + r.val)) (pt (1024 * (t.val % 16) + q.val)) := by
  unfold D2
  simp only [xblock_apply, yblock_apply]

/-- THE RUNNING MINIMA, characterised by their lower bounds: after position n (row tile n/16, column
    tile n%16) row r of the buffer is the greatest lower bound of D2 over the columns of the tiles 0..n%16. -/
theorem acc_lb (c : Dev nD) : ∀ (n : ℕ) (hn : n < cfg0.N) (r : Fin 1024) (u : Fin 1) (z : EReal),
    z ≤ (acc m c n hn : Vec Ideal S1024x1 .f32) (ix2 r u) ↔
      ∀ j : ℕ, j ≤ n % 16 → ∀ q : Fin 1024, z ≤ D2 (cloudX m c) (cloudY m c) (pt (1024 * (n / 16) + r.val)) (pt (1024 * j + q.val))
  | 0, hn, r, u, z => by
    rw [show acc m c 0 hn = k0_pay2 (iblk m c 0 ⟨0, hn⟩) (iblk m c 1 ⟨0, hn⟩) from rfl, rowmins_apply, Finset.le_inf_iff]
    simp only [tileD2, Finset.mem_univ, forall_true_left]
    constructor
    · intro h j hj q
      obtain rfl : j = 0 := by omega
      exact h q
    · intro h q
      exact h 0 (by omega) q
  | n + 1, hn, r, u, z => by
    by_cases h0 : (n + 1) % 16 = 0
    · rw [acc_first m c ⟨n + 1, hn⟩ h0, rowmins_apply, Finset.le_inf_iff]
      simp only [tileD2, Finset.mem_univ, forall_true_left]
      constructor
      · intro h j hj q
        obtain rfl : j = (n + 1) % 16 := by omega
        exact h q
      · intro h q
        exact h ((n + 1) % 16) le_rfl q
    · rw [acc_next m c ⟨n + 1, hn⟩ h0, accmins_apply, le_min_iff, Finset.le_inf_iff]
      simp only [tileD2, Finset.mem_univ, forall_true_left]
      have ih := acc_lb c n (Nat.lt_of_succ_lt hn) r u z
      have e1 : (n + 1) / 16 = n / 16 := by omega
      have e2 : (n + 1) % 16 = n % 16 + 1 := by omega
      show z ≤ (acc m c n _ : Vec Ideal S1024x1 .f32) (ix2 r u) ∧ _ ↔ _
      rw [ih, e1, e2]
      constructor
      · rintro ⟨ha, hb⟩ j hj q
        by_cases hj' : j ≤ n % 16
        · exact ha j hj' q
        · obtain rfl : j = n % 16 + 1 := by omega
          exact hb q
      · intro h
        exact ⟨fun j hj q => h j (by omega) q, fun q => h (n % 16 + 1) le_rfl q⟩

/-- What the row-minimum array ends holding: at row n the minimum over every column. -/
def rowMinima (c : Dev nD) : S16384x1.Idx → EReal :=
  fun i => Finset.univ.inf fun mm : Fin 16384 => D2 (cloudX m c) (cloudY m c) (i 0) mm

/-- What the column-minimum array ends holding: at (8·a + s, mm) the minimum over the rows of row tile a. -/
def colMinima (c : Dev nD) : S128x16384.Idx → EReal :=
  fun i => Finset.univ.inf fun r : Fin 1024 => D2 (cloudX m c) (cloudY m c) (pt (1024 * ((i 0).val / 8) + r.val)) (i 1)

/-- After the last column tile the running minima are the minima over every column. -/
theorem acc_last (c : Dev nD) (t : Fin cfg0.N) (h15 : t.val % 16 = 15) (r : Fin 1024) (u : Fin 1) :
    (acc m c t.val t.isLt : Vec Ideal S1024x1 .f32) (ix2 r u)
      = Finset.univ.inf fun mm : Fin 16384 => D2 (cloudX m c) (cloudY m c) (pt (1024 * (t.val / 16) + r.val)) mm :=
  eq_of_forall_le_iff fun z => by
    rw [acc_lb, Finset.le_inf_iff, h15]
    simp only [Finset.mem_univ, forall_true_left]
    constructor
    · intro h mm
      have hm := mm.isLt
      have := h (mm.val / 1024) (by omega) ⟨mm.val % 1024, Nat.mod_lt _ (by decide)⟩
      rwa [show pt (1024 * (mm.val / 1024) + mm.val % 1024) = mm from by
        rw [Nat.div_add_mod]; exact pt_self mm] at this
    · intro h j _ q
      exact h _

set_option maxRecDepth 200000 in
/-- The block of the row-minimum array written back at point t is the array's block there. -/
theorem flushed2_eq (c : Dev nD) (t : Fin cfg0.N) (hf : (cfg0.win 2).flush t = true) :
    (dats m 0 c).flushed 2 t = ((cfg0.win 2).blk t).view.read (Elt Ideal) (rowMinima m c) := by
  have ht : t.val < 256 := lt_of_lt_of_eq t.isLt N256
  have h15 : t.val % 16 = 15 := (flush0_2 t).mp hf
  obtain ⟨-, -, -, -, e0, e1, -⟩ := idx_facts t
  show (cfg0.win 2).cut (grid0.coords t) ((dats m 0 c).after 2 t) = _
  rw [after2]
  funext y
  obtain ⟨r, u, rfl⟩ : ∃ (r : Fin 1024) (u : Fin 1), y = ix2 r u := ⟨y 0, y 1, eq_ix2 y⟩
  show (acc m c t.val t.isLt : Vec Ideal S1024x1 .f32) (ix2 r u) = rowMinima m c (((cfg0.win 2).blk t).view.emb (ix2 r u))
  rw [acc_last m c t h15]
  unfold rowMinima
  refine congrArg (fun n => Finset.univ.inf fun mm : Fin 16384 => D2 (cloudX m c) (cloudY m c) n mm) (Fin.ext ?_)
  show (pt (1024 * (t.val / 16) + r.val)).val = win0_2.index t (0 : Fin 2) * 1024 + 1 * r.val
  rw [pt_val (by have := r.isLt; omega), e0]; omega

set_option maxRecDepth 200000 in
/-- The block of the column-minimum array written back at point t is the array's block there. -/
theorem flushed3_eq (c : Dev nD) (t : Fin cfg0.N) :
    (dats m 0 c).flushed 3 t = ((cfg0.win 3).blk t).view.read (Elt Ideal) (colMinima m c) := by
  have ht : t.val < 256 := lt_of_lt_of_eq t.isLt N256
  obtain ⟨-, -, -, -, -, -, e0, e1⟩ := idx_facts t
  show (cfg0.win 3).cut (grid0.coords t) ((dats m 0 c).after 3 t) = _
  rw [after3]
  funext y
  obtain ⟨s, q, rfl⟩ : ∃ (s : Fin 8) (q : Fin 1024), y = ix2 s q := ⟨y 0, y 1, eq_ix2 y⟩
  show k0_pay4 (F := Ideal) (iblk m c 0 t) (iblk m c 1 t) (ix2 s q) = colMinima m c (((cfg0.win 3).blk t).view.emb (ix2 s q))
  rw [colmins_apply]
  unfold colMinima
  simp only [tileD2]
  have hs := s.isLt
  have hq := q.isLt
  have ea : ((((cfg0.win 3).blk t).view.emb (ix2 s q)) 0).val = 8 * (t.val / 16) + s.val := by
    show win0_3.index t (0 : Fin 2) * 8 + 1 * s.val = _
    rw [e0]; omega
  have eb : (((cfg0.win 3).blk t).view.emb (ix2 s q)) 1 = pt (1024 * (t.val % 16) + q.val) := Fin.ext (by
    show win0_3.index t (1 : Fin 2) * 1024 + 1 * q.val = (pt (1024 * (t.val % 16) + q.val)).val
    rw [pt_val (by omega), e1]; omega)
  rw [ea, eb, show (8 * (t.val / 16) + s.val) / 8 = t.val / 16 from by omega]

/-- An index of the row-minimum array is in point t's block iff each coordinate is in the block's range. -/
theorem mem_blk2 (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2_0).slice (win0_2.rect t)).set ↔ _
  rw [View.set_slice_whole, Rect.mem_set_unit]
  exact Iff.rfl

theorem mem_blk3 (t : Fin cfg0.N) (i : S128x16384.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v2_1).slice (win0_3.rect t)).set ↔ _
  rw [View.set_slice_whole, Rect.mem_set_unit]
  exact Iff.rfl

/-- The row-minimum array after the run. -/
theorem final2 (c : Dev nD) : (dats m 0 c).arrAt 2 cfg0.N = rowMinima m c :=
  (dats m 0 c).arrAt_eq_of_cover 2 (rowMinima m c) (flushed2_eq m c) fun i => by
    have h0 : (i 0).val < 16384 := (i 0).isLt
    have h1 : (i 1).val < 1 := (i 1).isLt
    let t : Fin cfg0.N := ⟨16 * ((i 0).val / 1024) + 15, by rw [N256]; omega⟩
    have htv : t.val = 16 * ((i 0).val / 1024) + 15 := rfl
    obtain ⟨-, -, -, -, e0, e1, -⟩ := idx_facts t
    refine ⟨t, (flush0_2 t).mpr (by rw [htv]; omega), ?_⟩
    rw [mem_blk2]
    intro a
    match a with
    | ⟨0, _⟩ =>
      show win0_2.index t (0 : Fin 2) * 1024 ≤ (i 0).val ∧ (i 0).val < win0_2.index t (0 : Fin 2) * 1024 + 1024
      rw [e0, htv]; omega
    | ⟨1, _⟩ =>
      show win0_2.index t (1 : Fin 2) * 1 ≤ (i 1).val ∧ (i 1).val < win0_2.index t (1 : Fin 2) * 1 + 1
      rw [e1]; omega

/-- The column-minimum array after the run. -/
theorem final3 (c : Dev nD) : (dats m 0 c).arrAt 3 cfg0.N = colMinima m c :=
  (dats m 0 c).arrAt_eq_of_cover 3 (colMinima m c) (fun t _ => flushed3_eq m c t) fun i => by
    have h0 : (i 0).val < 128 := (i 0).isLt
    have h1 : (i 1).val < 16384 := (i 1).isLt
    let t : Fin cfg0.N := ⟨16 * ((i 0).val / 8) + (i 1).val / 1024, by rw [N256]; omega⟩
    have htv : t.val = 16 * ((i 0).val / 8) + (i 1).val / 1024 := rfl
    obtain ⟨-, -, -, -, -, -, e0, e1⟩ := idx_facts t
    refine ⟨t, flush0_3 t, ?_⟩
    rw [mem_blk3]
    intro a
    match a with
    | ⟨0, _⟩ =>
      show win0_3.index t (0 : Fin 2) * 8 ≤ (i 0).val ∧ (i 0).val < win0_3.index t (0 : Fin 2) * 8 + 8
      rw [e0, htv]; omega
    | ⟨1, _⟩ =>
      show win0_3.index t (1 : Fin 2) * 1024 ≤ (i 1).val ∧ (i 1).val < win0_3.index t (1 : Fin 2) * 1024 + 1024
      rw [e1, htv]; omega

end Cert.KernelIdeal.Body

end
-- ==== Proof.Means.lean ====
/-
  The average both programs take of a vector of 16384 distances: groups of 8 consecutive entries are
  averaged (sum from zero, divided by 8), the 2048 group means are averaged (sum from zero, divided by
  2048), and the two vectors' averages are added. Named once, so that the two programs' results are
  the same function of their two vectors of distances.
-/
import Idealize.ShloMosaic.PureOps
import Idealize.ShloMosaic.PureOps.Ideal

noncomputable section

namespace Chamfer

open Idealize.ShloMosaic

abbrev V16384 : Shape := ⟨1, ![16384]⟩
abbrev M2048x8 : Shape := ⟨2, ![2048, 8]⟩
abbrev V2048 : Shape := ⟨1, ![2048]⟩
abbrev Sc : Shape := ⟨0, ![]⟩

theorem casts_V16384_M2048x8 : V16384.ShapeCasts M2048x8 := by decide
theorem reducesTo_M2048x8_V2048 : M2048x8.ReducesTo [1] V2048 := by decide
theorem bcast_Sc_V2048 : Sc.BroadcastsInDim V2048 (![] : Fin 0 → Fin V2048.rank) := by decide
theorem reducesTo_V2048_Sc : V2048.ReducesTo [0] Sc := by decide
theorem pos_Sc : 0 < Sc.numel := by decide

/-- The mean of the 2048 means of 8 consecutive entries. -/
def meanOfMeans (p : V16384.Idx → Ideal .f32) : Sc.Idx → Ideal .f32 :=
  Host.divf (F := Ideal)
    (Host.reduceAdd (F := Ideal)
      (Host.divf (F := Ideal)
        (Host.reduceAdd (F := Ideal) (shapeCast M2048x8 p casts_V16384_M2048x8) (constant (F := Ideal) Sc .f32 0x00000000#32) reducesTo_M2048x8_V2048 pos_Sc)
        (broadcastInDim V2048 ![] bcast_Sc_V2048 (constant (F := Ideal) Sc .f32 0x41000000#32)))
      (constant (F := Ideal) Sc .f32 0x00000000#32) reducesTo_V2048_Sc pos_Sc)
    (constant (F := Ideal) Sc .f32 0x45000000#32)

/-- The sum of the two vectors' means. -/
def total (p g : V16384.Idx → Ideal .f32) : Sc.Idx → Ideal .f32 :=
  addf (F := Ideal) (meanOfMeans p) (meanOfMeans g)

end Chamfer

end
-- ==== Proof.KITail.lean ====
/-
  The host operations after the region, read on the extended reals. The row distances are
  clampSqrt of the row-minimum array; the column distances are clampSqrt of the minimum, over the 16
  row tiles, of the column-minimum array's rows 8·a — that is, of the minimum over all 16384 rows.
  The program's result is the shared average of the two vectors.
-/
import proofs.«140723_j70153995813078_2_alg».proof.Proof.KIArrays
import proofs.«140723_j70153995813078_2_alg».proof.Proof.Means
import Idealize.ShloMosaic.Lib.StableHlo.Run
import Idealize.ShloMosaic.Lib.ValueLayout

set_option maxRecDepth 16384

noncomputable section

namespace Cert.KernelIdeal.Body

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Tile Idealize.ShloMosaic.ValueIdx Chamfer

variable (m : (ℓ : Loc nD τ sig) → Buf (Elt Ideal) ℓ)

/-- The row distances as the host computes them from the row-minimum array. -/
def rowDist (c : Dev nD) : S16384.Idx → EReal :=
  Host.sqrt (F := Ideal) (maximumf (F := Ideal)
    (fun i => shapeCast S16384 (rowMinima m c) shapeCasts_S16384x1_S16384 i)
    (broadcastInDim S16384 ![] bcast_S_S16384 (constant (F := Ideal) S_ .f32 0x00000000#32)))

/-- The column distances as the host computes them from the column-minimum array. -/
def colDist (c : Dev nD) : S16384.Idx → EReal :=
  Host.sqrt (F := Ideal) (maximumf (F := Ideal)
    (fun i => shapeCast S16384
      (extractStridedSlice S1x16384 ![0, 0]
        (Host.reduce (FloatOps.minimumf (F := Ideal))
          (fun i => shapeCast S16x8x16384 (colMinima m c) shapeCasts_S128x16384_S16x8x16384 i)
          (constant (F := Ideal) S_ .f32 0x7F800000#32) reducesTo_S16x8x16384_S8x16384_d0 h_S_)
        slices_S8x16384_S1x16384_0_0)
      shapeCasts_S1x16384_S16384 i)
    (broadcastInDim S16384 ![] bcast_S_S16384 (constant (F := Ideal) S_ .f32 0x00000000#32)))

/-- The host's square root of an entrywise maximum, at an entry. -/
theorem sqrt_max_apply {S : Shape} (a b : FVec Ideal S .f32) (i : S.Idx) :
    Host.sqrt (F := Ideal) (maximumf (F := Ideal) a b) i = Ideal.sqrt (max (a i) (b i)) := rfl

/-- The zero vector the host clamps against, at an entry. -/
theorem zeros_apply (i : S16384.Idx) :
    broadcastInDim S16384 ![] bcast_S_S16384 (constant (F := Ideal) S_ .f32 0x00000000#32) i = 0 :=
  (broadcastInDim_apply _ bcast_S_S16384 (constant (F := Ideal) S_ .f32 0x00000000#32) i ix0 (fun a => a.elim0)).trans Ideal.ofBits_zero_f32

set_option maxHeartbeats 2000000 in
/-- The program's result after the host operations that follow the region. -/
theorem result_eq (c : Dev nD) :
    Pipeline.afterTail₀ cfgs (dats m) 0 (V0 m) [hostOps1] c main_v26 = total (rowDist m c) (colDist m c) := by
  have e2 : Pipeline.withArrays (cfgs 0).spec c (V0 m c) (fun w => (dats m 0 c).arrAt w (cfgs 0).N) (Proc.devRef .tc main_v2_0) = rowMinima m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = colMinima m c :=
    (Pipeline.withArrays_arr spec0 launch0.win.arr_inj c _ _ 3).trans (final3 m c)
  unfold Pipeline.afterTail₀
  show StableHlo.after hostOps1 _ (Proc.devRef .tc main_v26) = _
  after_results_simp
  rw [e2, e3]
  rfl

/-- Row n of the row distances. -/
theorem rowDist_apply (c : Dev nD) (n : Fin 16384) :
    rowDist m c (ix1 n) = clampSqrt (Finset.univ.inf fun mm : Fin 16384 => D2 (cloudX m c) (cloudY m c) n mm) := by
  unfold rowDist clampSqrt
  rw [sqrt_max_apply, zeros_apply]
  refine congrArg (fun z => Ideal.sqrt (max z 0)) ?_
  refine (shapeCast_apply (rowMinima m c) shapeCasts_S16384x1_S16384 (ix1 n) (ix2 n (0 : Fin 1)) ?_).trans rfl
  rw [Shape.rowMajor_val_one, Shape.rowMajor_val_two]
  show n.val * 1 + 0 = n.val
  omega

set_option maxRecDepth 200000 in
/-- Column mm of the column distances. -/
theorem colDist_apply (c : Dev nD) (mm : Fin 16384) :
    colDist m c (ix1 mm) = clampSqrt (Finset.univ.inf fun n : Fin 16384 => D2 (cloudX m c) (cloudY m c) n mm) := by
  have hr : S16x8x16384.Reduces [0] S8x16384 := by decide
  unfold colDist clampSqrt
  rw [sqrt_max_apply, zeros_apply]
  refine congrArg (fun z => Ideal.sqrt (max z 0)) ?_
  refine (shapeCast_1a_a_apply _ shapeCasts_S1x16384_S16384 mm).trans ?_
  refine (slice2_axis0_apply 0 _ slices_S8x16384_S1x16384_0_0 (0 : Fin 1) mm (0 : Fin 8) rfl).trans ?_
  refine (Host.reduce_eq_fold_single (a := (0 : Fin S16x8x16384.rank)) (FloatOps.minimumf (F := Ideal) (φ := .f32)) _ _ reducesTo_S16x8x16384_S8x16384_d0 hr h_S_ (ix2 (0 : Fin 8) mm)).trans ?_
  show (Finset.univ : Finset (Fin 16)).fold min (Ideal.ofBits .f32 0x7F800000#32)
    (fun a : Fin 16 => shapeCast S16x8x16384 (colMinima m c) shapeCasts_S128x16384_S16x8x16384 (hr.lift (ix2 (0 : Fin 8) mm) a)) = _
  rw [top_bits]
  refine (fold_min_top (Finset.univ : Finset (Fin 16)) _).trans ?_
  refine Eq.trans ?_ (inf_blocks (A := 16) (B := 1024) (by decide) (fun n : Fin (16 * 1024) => D2 (cloudX m c) (cloudY m c) n mm))
  refine congrArg (Finset.univ.inf) (funext fun a => ?_)
  have ha := a.isLt
  have el : hr.lift (ix2 (0 : Fin 8) mm) a = ix3 a (0 : Fin 8) mm :=
    funext fun b => Fin.ext (by match b with | ⟨0, _⟩ => rfl | ⟨1, _⟩ => rfl | ⟨2, _⟩ => rfl)
  rw [el]
  refine (shapeCast_apply (colMinima m c) shapeCasts_S128x16384_S16x8x16384 (ix3 a (0 : Fin 8) mm)
    (ix2 (⟨8 * a.val, by omega⟩ : Fin 128) mm) (by
      rw [Shape.rowMajor_val_two, Shape.rowMajor_val_three]
      show 8 * a.val * 16384 + mm.val = (a.val * 8 + 0) * 16384 + mm.val
      omega)).trans ?_
  unfold colMinima
  refine congrArg (Finset.univ.inf) (funext fun r => ?_)
  have hrr := r.isLt
  refine congrArg (fun n => D2 (cloudX m c) (cloudY m c) n mm) (Fin.ext ?_)
  show (pt (1024 * (8 * a.val / 8) + r.val)).val = 1024 * a.val + r.val
  rw [pt_val (by omega)]; omega

end Cert.KernelIdeal.Body

end
-- ==== Proof.KRun.lean ====
/-
  The kernel body run symbolically on whole staging buffers, in the two cases the grid meets.
  At a point whose second coordinate is 0 the body overwrites the row-minimum block with the tile's row
  minima; at every other point it replaces the block by its elementwise minimum with the tile's row minima.
  In both cases the column-minimum block is overwritten with the tile's column minima, and the two input
  blocks are left as they were found. Each case is stated with the buffers' final contents named by the
  body's own arithmetic terms (the row minima, the accumulated minima, the broadcast column minima).
-/
import proofs.«140723_j70153995813078_2_alg».proof.Proof.Gen.Kernel.Skeleton
import proofs.«140723_j70153995813078_2_alg».proof.Proof.Gen.Kernel.Frame
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch (overwrite) is taken exactly at the points whose second coordinate is 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
/-- The second branch (accumulate) is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- The zero offsets of a whole-block access. -/
theorem zero2 : (![0, 0] : Fin 2 → ℕ) = fun _ => 0 := by funext a; fin_cases a <;> rfl

/-- One whole-block store leaves its payload, whatever the buffer held. -/
theorem read_one_store {κ : Kind} {sp : Space} {S : Shape} {e : EltTy}
    (v : View sig κ sp S e) (f : v.ty.Contents (Elt F)) {off : Fin S.rank → ℕ} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- The body where the row-minimum block is overwritten (second coordinate 0). -/
theorem run_first (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S8x1024 .f32) (harg5 : arg5.IsWhole)
    (hc1 : k0_cond1 i = 1#1) (hc2 : ¬ k0_cond2 i = 1#1)
    (x0 : Vec F S1024x3 .f32) (x1 : Vec F S1024x3 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_one_store _ _ zero2]
    simp only [View.readAt_eq_ld, harg2.read_unread, harg3.read_unread, View.ld_unit_zero (S := S1024x3) zero2]
  iexists _; isplitr
  swap; · iexact H3
  ipureintro
  rw [read_one_store _ _ zero2]
  simp only [View.readAt_eq_ld, harg2.read_unread, harg3.read_unread, View.ld_unit_zero (S := S1024x3) zero2]

set_option maxHeartbeats 1000000 in
/-- The body where the row-minimum block is accumulated into (second coordinate not 0): the block is read
    back and replaced by its minimum with the tile's row minima. -/
theorem run_next (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S8x1024 .f32) (harg5 : arg5.IsWhole)
    (hc1 : ¬ k0_cond1 i = 1#1) (hc2 : k0_cond2 i = 1#1)
    (x0 : Vec F S1024x3 .f32) (x1 : Vec F S1024x3 .f32) (xo2 : Vec F S1024x1 .f32) (E : Set ℕ) (K : PUnit → sProp 𝕄) :
    iprop(owns (c : Thread nD τ) arg2 fullShare x0 ∗ owns (c : Thread nD τ) arg3 fullShare x1
        ∗ owns (c : Thread nD τ) arg4 fullShare xo2 ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 x0 x1 xo2) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_one_store _ _ zero2]
    simp only [View.readAt_eq_ld, harg2.read_unread, harg3.read_unread, harg4.read_unread,
      View.ld_unit_zero (S := S1024x3) zero2, View.ld_unit_zero (S := S1024x1) zero2]
  iexists _; isplitr
  swap; · iexact H3
  ipureintro
  rw [read_one_store _ _ zero2]
  simp only [View.readAt_eq_ld, harg2.read_unread, harg3.read_unread, View.ld_unit_zero (S := S1024x3) zero2]

end Cert.Kernel.Body

end
-- ==== Proof.KBody.lean ====
/-
  The pipeline's proof data and the frame run.
  Grid point t = 16·i + j works on row tile i and column tile j (1024 rows each). The row-minimum
  output block depends on i only, so its staging buffer is carried across the 16 points of a row of the
  grid and written back at j = 15: after point t it holds the minimum, over the column tiles 0..j, of
  the tile's row minima — defined here by recursion on the point. The column-minimum output block is
  rewritten whole at every point. The inputs' buffers hold their blocks throughout.
-/
import proofs.«140723_j70153995813078_2_alg».proof.Proof.KRun

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row-minimum block is stored into at every point: one of the two branches is always taken. -/
theorem live2 : ∀ i : grid0.Coords, cfg0.idle 2 i = false := by
  intro i
  have h : ∀ j : Fin 16, (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by decide
  exact h (i 1)

/-- Each window's current staging buffer at point `t`, as the pipeline passes it to the body. -/
abbrev ms0 (t : Fin cfg0.N) : Memref sig .tc .vmem S1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)

/-- THE RUNNING ROW MINIMA. What the row-minimum staging buffer holds after the body at position `n`:
    at the first column tile the tile's row minima, afterwards their minimum with what the point before left. -/
def acc (c : Dev nD) : (n : ℕ) → n < cfg0.N → Vec F S1024x1 .f32
  | 0, hn => k0_pay2 (iblk m c 0 ⟨0, hn⟩) (iblk m c 1 ⟨0, hn⟩)
  | n + 1, hn =>
    if (n + 1) % 16 = 0 then k0_pay2 (iblk m c 0 ⟨n + 1, hn⟩) (iblk m c 1 ⟨n + 1, hn⟩)
    else k0_pay3 (iblk m c 0 ⟨n + 1, hn⟩) (iblk m c 1 ⟨n + 1, hn⟩) (acc c n (Nat.lt_of_succ_lt hn))

/-- At a first column tile: the tile's row minima. -/
theorem acc_first (c : Dev nD) (t : Fin cfg0.N) (h0 : t.val % 16 = 0) :
    acc m c t.val t.isLt = k0_pay2 (iblk m c 0 t) (iblk m c 1 t) := by
  obtain ⟨n, hn⟩ := t
  cases n with
  | zero => exact rfl
  | succ n => exact (if_pos h0).trans rfl

/-- At a later column tile: the minimum of what the point before left and the tile's row minima. -/
theorem acc_next (c : Dev nD) (t : Fin cfg0.N) (h0 : ¬t.val % 16 = 0) :
    acc m c t.val t.isLt = k0_pay3 (iblk m c 0 t) (iblk m c 1 t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core `c`: the arrays as the region finds them; after the body at
    point `t` each input's buffer at its block, the row-minimum buffer at the running minima, the
    column-minimum buffer at the tile's column minima broadcast over its 8 rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
    | ⟨3, _⟩ => k0_pay4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = acc m c t.val t.isLt := by dsimp only [dats]
theorem after3 (c : Dev nD) (t : Fin cfg0.N) : (dats m 0 c).after 3 t = k0_pay4 (iblk m c 0 t) (iblk m c 1 t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row-minimum buffer still holds what the body left at the point before: the
    block was not written back in between (write-backs happen after the last column tile only). -/
theorem before2_next (c : Dev nD) (t : Fin cfg0.N) (h0 : ¬t.val % 16 = 0) (d) :
    (dats m 0 c).before 2 t d = acc m c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live2 (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point's second coordinate says which
    case it is in; at a later column tile the row-minimum buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 = 0
  · rw [acc_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => (hcond2 t).mp h h0) (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_next m c t h0]
    simp only [before2_next m c t h0]
    iintro ⟨HΦ, Ho, ⟨%d0, H0⟩, ⟨%d1, H1⟩, ⟨%d2, H2⟩, ⟨%d3, H3⟩⟩
    iapply (run_next c (grid0.coords t) _ _ _ _ _ _ _ _ (fun h => h0 ((hcond1 t).mp h)) ((hcond2 t).mpr h0) (iblk m c 0 t) (iblk m c 1 t) _ Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  dsimp only
  rw [show idle0 2 (grid0.coords t) = false from live2 (grid0.coords t)]
  exact sound_body m c t

set_option backward.isDefEq.respectTransparency.types false in
/-- Every weakly fair execution of @main terminates; every array of the pipeline ends at what the library
    computes from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.RefFrame.lean ====
/-
  The reference program is host operations only: its run is the composition of its operations, and its
  frame is that run with the result forgotten.
-/
import proofs.«140723_j70153995813078_2_alg».proof.Defs
import proofs.«140723_j70153995813078_2_alg».proof.Proof.Gen.ReferenceIdeal.Run
import proofs.«140723_j70153995813078_2_alg».proof.Proof.Gen.ReferenceIdeal.Read

noncomputable section

namespace Cert.ReferenceIdeal.Body

open Idealize.ShloMosaic Idealize.SL.Sem

/-- The reference terminates, faults nowhere, and leaves its argument arrays unchanged. -/
theorem frame [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.ReferenceIdeal.Body

end
-- ==== Proof.RefValue.lean ====
/-
  The reference, read entry by entry on the extended reals: its matrix of distances has entry (n, m)
  equal to clampSqrt (D2 n m); its two vectors of minima are the row and column minima of that
  matrix; its result is the shared average of the two.
-/
import proofs.«140723_j70153995813078_2_alg».proof.Proof.Gen.ReferenceIdeal.Read
import proofs.«140723_j70153995813078_2_alg».proof.Proof.LibMinima
import proofs.«140723_j70153995813078_2_alg».proof.Proof.Means
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Chamfer

variable (x0 x1 : (⟨S2048x8x3, .f32⟩ : BufTy).Contents (Elt Ideal))

/-- The sum of squares of row n of the first cloud. -/
theorem sq0 (n : Fin 16384) :
    val_main_v3 (F := Ideal) x0 (ix1 n) = ∑ k : Fin 3, val_main_v0 (F := Ideal) x0 (ix2 n k) * val_main_v0 (F := Ideal) x0 (ix2 n k) := by
  rw [val_main_v3_apply, val_main_cst_apply]
  simp only [val_main_v2_apply, Ideal.ofBits_def, Ideal.mulf_def, Ideal.ofBits_zero_f32, zero_add]
  refine Finset.sum_congr rfl fun k _ => ?_
  have e : idx_main_v3 (ix1 n) k = ix2 n k := funext fun a => Fin.ext (by match a with | ⟨0, _⟩ => rfl | ⟨1, _⟩ => rfl)
  rw [e]

/-- The sum of squares of row m of the second cloud. -/
theorem sq1 (mm : Fin 16384) :
    val_main_v5 (F := Ideal) x1 (ix1 mm) = ∑ k : Fin 3, val_main_v1 (F := Ideal) x1 (ix2 mm k) * val_main_v1 (F := Ideal) x1 (ix2 mm k) := by
  rw [val_main_v5_apply, val_main_cst_0_apply]
  simp only [val_main_v4_apply, Ideal.ofBits_def, Ideal.mulf_def, Ideal.ofBits_zero_f32, zero_add]
  refine Finset.sum_congr rfl fun k _ => ?_
  have e : idx_main_v5 (ix1 mm) k = ix2 mm k := funext fun a => Fin.ext (by match a with | ⟨0, _⟩ => rfl | ⟨1, _⟩ => rfl)
  rw [e]

/-- Entry (n, m) of the reference's matrix of distances. -/
theorem entry (n mm : Fin 16384) :
    val_main_v17 (F := Ideal) x0 x1 (ix2 n mm) = clampSqrt (D2 (val_main_v0 (F := Ideal) x0) (val_main_v1 (F := Ideal) x1) n mm) := by
  have e1 : idx_main_v6 (idx_main_v8 (ix2 n mm)) = ix1 n := funext fun a => Fin.ext (by match a with | ⟨0, _⟩ => rfl)
  have e2 : idx_main_v7 (idx_main_v9 (ix2 n mm)) = ix1 mm := funext fun a => Fin.ext (by match a with | ⟨0, _⟩ => rfl)
  have e3 : ∀ k : Fin 3, lidx_main_v11 (ix2 n mm) k = ix2 n k := fun k => funext fun a => Fin.ext (by match a with | ⟨0, _⟩ => rfl | ⟨1, _⟩ => rfl)
  have e4 : ∀ k : Fin 3, ridx_main_v11 (ix2 n mm) k = ix2 mm k := fun k => funext fun a => Fin.ext (by match a with | ⟨0, _⟩ => rfl | ⟨1, _⟩ => rfl)
  rw [val_main_v17_apply, val_main_v16_apply, val_main_v14_apply, val_main_v10_apply, val_main_v13_apply, val_main_v15_apply,
    val_main_cst_2_apply, val_main_v12_apply, val_main_cst_1_apply, val_main_v11_apply, val_main_v8_apply, val_main_v6_apply,
    val_main_v9_apply, val_main_v7_apply, e1, e2, sq0, sq1]
  simp only [e3, e4, Ideal.ofBits_def, Ideal.addf_def, Ideal.subf_def, Ideal.mulf_def, Ideal.maximumf_def, Ideal.hostUnary_sqrt_def,
    Ideal.ofBits_zero_f32]
  rfl

set_option maxRecDepth 200000 in
/-- The reference's row minima. -/
theorem rows (n : Fin 16384) :
    val_main_v18 (F := Ideal) x0 x1 (ix1 n)
      = Finset.univ.inf fun mm : Fin 16384 => clampSqrt (D2 (val_main_v0 (F := Ideal) x0) (val_main_v1 (F := Ideal) x1) n mm) := by
  have hr : S16384x16384.Reduces [1] S16384 := by decide
  unfold val_main_v18
  refine (Host.reduce_eq_fold_single (a := (1 : Fin S16384x16384.rank)) (FloatOps.minimumf (F := Ideal) (φ := .f32)) (val_main_v17 (F := Ideal) x0 x1) (val_main_cst_3 (F := Ideal))
    reducesTo_S16384x16384_S16384_d1 hr h_S_ (ix1 n)).trans ?_
  show (Finset.univ : Finset (Fin 16384)).fold min (Ideal.ofBits .f32 0x7F800000#32)
    (fun mm : Fin 16384 => val_main_v17 (F := Ideal) x0 x1 (hr.lift (ix1 n) mm)) = _
  rw [top_bits]
  refine (fold_min_top (Finset.univ : Finset (Fin 16384)) _).trans ?_
  refine congrArg (Finset.univ.inf) (funext fun mm => ?_)
  have e : hr.lift (ix1 n) mm = ix2 n mm := funext fun a => Fin.ext (by match a with | ⟨0, _⟩ => rfl | ⟨1, _⟩ => rfl)
  exact (congrArg (val_main_v17 (F := Ideal) x0 x1) e).trans (entry x0 x1 n mm)

set_option maxRecDepth 200000 in
/-- The reference's column minima. -/
theorem cols (mm : Fin 16384) :
    val_main_v23 (F := Ideal) x0 x1 (ix1 mm)
      = Finset.univ.inf fun n : Fin 16384 => clampSqrt (D2 (val_main_v0 (F := Ideal) x0) (val_main_v1 (F := Ideal) x1) n mm) := by
  have hr : S16384x16384.Reduces [0] S16384 := by decide
  unfold val_main_v23
  refine (Host.reduce_eq_fold_single (a := (0 : Fin S16384x16384.rank)) (FloatOps.minimumf (F := Ideal) (φ := .f32)) (val_main_v17 (F := Ideal) x0 x1) (val_main_cst_6 (F := Ideal))
    reducesTo_S16384x16384_S16384_d0 hr h_S_ (ix1 mm)).trans ?_
  show (Finset.univ : Finset (Fin 16384)).fold min (Ideal.ofBits .f32 0x7F800000#32)
    (fun n : Fin 16384 => val_main_v17 (F := Ideal) x0 x1 (hr.lift (ix1 mm) n)) = _
  rw [top_bits]
  refine (fold_min_top (Finset.univ : Finset (Fin 16384)) _).trans ?_
  refine congrArg (Finset.univ.inf) (funext fun n => ?_)
  have e : hr.lift (ix1 mm) n = ix2 n mm := funext fun a => Fin.ext (by match a with | ⟨0, _⟩ => rfl | ⟨1, _⟩ => rfl)
  exact (congrArg (val_main_v17 (F := Ideal) x0 x1) e).trans (entry x0 x1 n mm)

/-- The reference's result is the shared average of its two vectors of minima. -/
theorem result_eq : val_main_v32 (F := Ideal) x0 x1 = total (val_main_v18 (F := Ideal) x0 x1) (val_main_v23 (F := Ideal) x0 x1) := rfl

end Cert.ReferenceIdeal.RefValue

end
-- ==== Proof.Claims.lean ====
/-
  The two programs compute one function. With X and Y the two point clouds (each program's first step
  is the same reshape of its arguments), the kernel's row distances are clampSqrt of the minimum over
  m of D2 n m and the reference's are the minimum over m of clampSqrt (D2 n m): equal, because
  clampSqrt is monotone and fixes +∞. The same holds for the column distances, and both programs then
  take the same average.
-/
import proofs.«140723_j70153995813078_2_alg».proof.Defs
import proofs.«140723_j70153995813078_2_alg».proof.Proof.KITail
import proofs.«140723_j70153995813078_2_alg».proof.Proof.KBody
import proofs.«140723_j70153995813078_2_alg».proof.Proof.RefFrame
import proofs.«140723_j70153995813078_2_alg».proof.Proof.RefValue
import proofs.«140723_j70153995813078_2_alg».proof.Proof.Gen.Pre_finite_inputs

set_option maxRecDepth 16384

noncomputable section

namespace Cert.Proof.ChamferClaims

open Idealize.ShloMosaic Idealize.ShloMosaic.TcCoe Idealize.SL.Sem Idealize.ShloMosaic.StableHlo
open Idealize.ShloMosaic.ValueIdx Chamfer
open Cert.KernelIdeal Cert.KernelIdeal.Gen Cert.KernelIdeal.Body

variable (m : (ℓ : Loc nD τ sig) → Buf (Elt Ideal) ℓ)

/-- The first cloud as the region finds it is the reshape of the first argument. -/
theorem cloudX_eq (c : Dev nD) :
    cloudX m c = Cert.ReferenceIdeal.Read.val_main_v0 (F := Ideal) (m ((c.tc : Thread nD τ).loc main_arg0)) := by
  show StableHlo.after hostOps0 (fun b => m (c, b)) (Proc.devRef .tc main_v0) = _
  after_results
  rfl

/-- The second cloud as the region finds it is the reshape of the second argument. -/
theorem cloudY_eq (c : Dev nD) :
    cloudY m c = Cert.ReferenceIdeal.Read.val_main_v1 (F := Ideal) (m ((c.tc : Thread nD τ).loc main_arg1)) := by
  show StableHlo.after hostOps0 (fun b => m (c, b)) (Proc.devRef .tc main_v1) = _
  after_results
  rfl

/-- The reference's row minima are the kernel's row distances. -/
theorem rows_eq (c : Dev nD) :
    Cert.ReferenceIdeal.Read.val_main_v18 (F := Ideal) (m ((c.tc : Thread nD τ).loc main_arg0)) (m ((c.tc : Thread nD τ).loc main_arg1))
      = rowDist m c := by
  funext i
  obtain ⟨n, rfl⟩ : ∃ n : Fin 16384, i = ix1 n := ⟨i 0, eq_ix1 i⟩
  rw [Cert.ReferenceIdeal.RefValue.rows, rowDist_apply, clampSqrt_inf, cloudX_eq, cloudY_eq]

/-- The reference's column minima are the kernel's column distances. -/
theorem cols_eq (c : Dev nD) :
    Cert.ReferenceIdeal.Read.val_main_v23 (F := Ideal) (m ((c.tc : Thread nD τ).loc main_arg0)) (m ((c.tc : Thread nD τ).loc main_arg1))
      = colDist m c := by
  funext i
  obtain ⟨n, rfl⟩ : ∃ n : Fin 16384, i = ix1 n := ⟨i 0, eq_ix1 i⟩
  rw [Cert.ReferenceIdeal.RefValue.cols, colDist_apply, clampSqrt_inf, cloudX_eq, cloudY_eq]

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := Cert.ReferenceIdeal.Body.frame

theorem preserves : Cert.preserves_Kernel_KernelIdeal := trivial

/-- Both idealized programs end, from memories agreeing on the arguments, with the shared average of the
    same two vectors of distances. -/
theorem algebraic : Cert.algebraic_KernelIdeal_ReferenceIdeal := by
  intro m ρ m' ρ' _ hagree
  refine ⟨fun c => total (rowDist m c) (colDist m c), ?_, ?_⟩
  · exact (θ_run Cert.KernelIdeal.defs _ _).mono (fun _ h c =>
      ⟨((h c).2 main_v26 (Pipeline.mem_restRefs_of main_v26 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
      (run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v32_eq, Cert.ReferenceIdeal.RefValue.result_eq]
    exact congrArg₂ total (rows_eq m c) (cols_eq m c)

end Cert.Proof.ChamferClaims

end
-- ==== Proof.lean ====
/-
  The certificate: both the kernel as printed and its idealization run to the end on every fair
  schedule, fault nowhere and leave their arguments unchanged (the tiled pipeline with the row-minimum
  block carried across the column tiles); so does the reference; the idealization rewrote nothing; and
  on the extended reals the kernel's result — the average of clampSqrt of tile-wise minima of squared
  distances — is the reference's — the average of minima of clampSqrt of squared distances.
-/
import proofs.«140723_j70153995813078_2_alg».proof.Defs
import proofs.«140723_j70153995813078_2_alg».proof.Proof.Gen.Kernel
import proofs.«140723_j70153995813078_2_alg».proof.Proof.Gen.KernelIdeal
import proofs.«140723_j70153995813078_2_alg».proof.Proof.Gen.ReferenceIdeal
import proofs.«140723_j70153995813078_2_alg».proof.Proof.Gen.Pre_finite_inputs
import proofs.«140723_j70153995813078_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.ChamferClaims.frame_k, Cert.Proof.ChamferClaims.frame_ki, Cert.Proof.ChamferClaims.frame_ri,
  Cert.Proof.ChamferClaims.preserves, Cert.Proof.ChamferClaims.algebraic⟩

end Cert.Proof

end
